-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x2 : Shape := ⟨2, ![100000, 2]⟩
abbrev S2000x2 : Shape := ⟨2, ![2000, 2]⟩
abbrev S1700000x2 : Shape := ⟨2, ![1700000, 2]⟩
abbrev S1x2 : Shape := ⟨2, ![1, 2]⟩
abbrev S10000x2 : Shape := ⟨2, ![10000, 2]⟩
abbrev S10000 : Shape := ⟨1, ![10000]⟩
abbrev S10000x1 : Shape := ⟨2, ![10000, 1]⟩

abbrev nBuf : Space → Nat
  | .hbm => 87
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x2, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x2, .f32⟩
  | .hbm, ⟨76, _⟩ => ⟨S1700000x1, .f32⟩
  | .hbm, ⟨77, _⟩ => ⟨S1700000x2, .f32⟩
  | .hbm, ⟨78, _⟩ => ⟨S1700000x2, .f32⟩
  | .hbm, ⟨79, _⟩ => ⟨S_, .f32⟩
  | .hbm, ⟨80, _⟩ => ⟨S100000x2, .f32⟩
  | .hbm, ⟨81, _⟩ => ⟨S1700000x1, .i32⟩
  | .hbm, ⟨82, _⟩ => ⟨S100000x2, .f32⟩
  | .hbm, ⟨83, _⟩ => ⟨S1x2, .f32⟩
  | .hbm, ⟨84, _⟩ => ⟨S100000x2, .f32⟩
  | .hbm, ⟨85, _⟩ => ⟨S100000x2, .f32⟩
  | .hbm, ⟨86, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x2, .f32⟩
  | .local _ .vmem, ⟨8, _⟩ => ⟨S2000x2, .f32⟩
  | .local _ .vmem, ⟨9, _⟩ => ⟨S2000x2, .f32⟩
  | .local _ .vmem, ⟨10, _⟩ => ⟨S10000x2, .f32⟩
  | .local _ .vmem, ⟨11, _⟩ => ⟨S10000x2, .f32⟩
  | .local _ .vmem, ⟨12, _⟩ => ⟨S10000x2, .f32⟩
  | .local _ .vmem, ⟨13, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x2_S128x2_0_0 : ∀ a, (![0, 0] : Fin 2 → Nat) a + S128x2.size a ≤ S128x2.size a
  h_S128x2 : 0 < S128x2.numel
  inb_S2000x2_S2000x2_0_0 : ∀ a, (![0, 0] : Fin 2 → Nat) a + S2000x2.size a ≤ S2000x2.size a
  h_S2000x2 : 0 < S2000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x2_S2000x2_1_0_0_1_n_n_wf : DotDims.WF S2000x128 S128x2 S2000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S128x2.size a
  hwx1_1 : ∀ i : grid1.Coords, EltTy.bits .f32 = 32 ∨ (Rect.block (s := S128x2) S128x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x2.size a ≤ S100000x2.size a
  hwx1_2 : ∀ i : grid1.Coords, EltTy.bits .f32 = 32 ∨ (Rect.block (s := S100000x2) S2000x2.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S100000x2.size a
  hwx2_0 : ∀ i : grid2.Coords, EltTy.bits .f32 = 32 ∨ (Rect.block (s := S100000x2) S10000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x2.size a ≤ S100000x2.size a
  hwx2_1 : ∀ i : grid2.Coords, EltTy.bits .f32 = 32 ∨ (Rect.block (s := S100000x2) S10000x2.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S10000x2.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x2, .f32⟩
  | 5 => ⟨S2, .f32⟩
  | 6 => ⟨S100000x128, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S100000x2, .f32⟩
  | 67 => ⟨S100000, .i32⟩
  | 68 => ⟨S1x1600000, .i32⟩
  | 69 => ⟨S1600000, .i32⟩
  | 70 => ⟨S1700000, .i32⟩
  | 71 => ⟨S1x1600000, .i32⟩
  | 72 => ⟨S1600000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x2, .f32⟩
  | 116 => ⟨S1700000x1, .f32⟩
  | 117 => ⟨S1700000x2, .f32⟩
  | 118 => ⟨S1700000x2, .f32⟩
  | 119 => ⟨S_, .f32⟩
  | 120 => ⟨S100000x2, .f32⟩
  | 121 => ⟨S1700000x1, .i32⟩
  | 122 => ⟨S100000x2, .f32⟩
  | 123 => ⟨S1x2, .f32⟩
  | 124 => ⟨S100000x2, .f32⟩
  | 125 => ⟨S100000x2, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x2, .f32⟩
  | 5 => ⟨S100000x2, .f32⟩
  | 6 => ⟨S100000x2, .f32⟩
  | 7 => ⟨S_, .f32⟩
  | 8 => ⟨S100000, .f32⟩
  | 9 => ⟨S100000x1, .f32⟩
  | 10 => ⟨S100000x2, .f32⟩
  | 11 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_20 : Ref sig .tc := ⟨.hbm, 126, rfl⟩
abbrev main_v94 : Ref sig .tc := ⟨.hbm, 127, rfl⟩
abbrev main_cst_21 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KernelRun.lean ====
/-
  The idealized kernel's run with its result named.

  @main is three grid regions among stretches of host operations. Run from any memory with zero counters, every weakly
  fair execution terminates, and the final memory holds, at every unscoped buffer, the contents the last boundary of the
  run has there: the fold `W8` of the host stretches and of the regions' write-backs over the launch memory. Read at the
  result buffer this names the result; read at an argument it is the launch contents. The launch over the segments is
  the one the frame of this program is proved by; only what is read off the final state differs.
-/
import proofs.«182141_j12137577578917_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents `W8` there, and the arguments end as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibRowBlockDot.lean ====
/-
  A plain matrix product `x · W` as one function of the two arrays, and its blocks of rows.

  For `x` of `N × K` and `W` of `K × C` the product's entry at `(r, c)` is `∑ k, x (r, k) * W (k, c)` on the extended
  reals (`proj`). Two readings of it, generic in the extents. The host's `dot_general` of the whole arrays, with the
  dimension numbers of a plain product, is this function. And a block of `B` consecutive rows of it is the matrix
  unit's product, into a zero accumulator, of that block of rows of `x` with the whole of `W`: row `p` of block `b` is
  row `b * B + p` of the array, and the contraction runs over the same `K` terms. This is the step between a kernel
  that tiles the rows of a product over its grid and a reference that forms the product at once.
-/
import Idealize.ShloMosaic.PureOps.Ideal
import Idealize.ShloMosaic.Lib.ValueIdx
import proofs.«182141_j12137577578917_2_alg».proof.Proof.LibPlainDot

noncomputable section

namespace Idealize.ShloMosaic.RowBlockDot

open Idealize.ShloMosaic Idealize.ShloMosaic.ValueIdx

variable {N K C : Nat}

/-- The product: entry `(i 0, i 1)` is the sum over `k` of `x (i 0, k) * W (k, i 1)`. -/
def proj (x : (⟨2, ![N, K]⟩ : Shape).Idx → EReal) (W : (⟨2, ![K, C]⟩ : Shape).Idx → EReal) :
    (⟨2, ![N, C]⟩ : Shape).Idx → EReal :=
  fun i => ∑ k : Fin K, x (ix2 (n0 := N) (n1 := K) (i 0) k) * W (ix2 (n0 := K) (n1 := C) k (i 1))

/-- The product at named coordinates. -/
theorem proj_apply (x : (⟨2, ![N, K]⟩ : Shape).Idx → EReal) (W : (⟨2, ![K, C]⟩ : Shape).Idx → EReal)
    (r : Fin N) (c : Fin C) : proj x W (ix2 r c) = ∑ k : Fin K, x (ix2 r k) * W (ix2 k c) := rfl

/-- The host's product of the whole arrays is `proj`. -/
theorem dotGeneral_eq_proj (wf : DotDims.WF ⟨2, ![N, K]⟩ ⟨2, ![K, C]⟩ ⟨2, ![N, C]⟩ [1] [0] [0] [1] [] [])
    {φ₁ φ₂ : FTy} (prec : Option ContractPrecision) (sched : HostSchedule)
    (x : FVec Ideal ⟨2, ![N, K]⟩ φ₁) (W : FVec Ideal ⟨2, ![K, C]⟩ φ₂) :
    FloatOps.dotGeneral (PlainDot.dims N K C wf) prec sched x W = proj x W := by
  funext i
  obtain ⟨r, c, rfl⟩ : ∃ (r : Fin N) (c : Fin C), i = ix2 r c := ⟨i 0, i 1, eq_ix2 i⟩
  exact PlainDot.dotGeneral_apply wf prec sched x W r c

/-- Block `b` of `B` rows of the product: when `x0` holds rows `b * B …` of `X` and `x1` holds `W`, the matrix unit's
    product of `x0` and `x1` into a zero accumulator is, at `(p, q)`, the product at `(b * B + p, q)`. -/
theorem matmul_block {B : Nat} (wf : DotDims.WF ⟨2, ![B, K]⟩ ⟨2, ![K, C]⟩ ⟨2, ![B, C]⟩ [1] [0] [0] [1] [] [])
    {φ₁ φ₂ : FTy} (prec : Option ContractPrecision)
    (X : (⟨2, ![N, K]⟩ : Shape).Idx → EReal) (W : (⟨2, ![K, C]⟩ : Shape).Idx → EReal)
    (x0 : FVec Ideal ⟨2, ![B, K]⟩ φ₁) (x1 : FVec Ideal ⟨2, ![K, C]⟩ φ₂) (b : Nat)
    (hrow : ∀ p : Fin B, b * B + p.val < N)
    (h0 : ∀ (p : Fin B) (k : Fin K), x0 (ix2 p k) = X (ix2 ⟨b * B + p.val, hrow p⟩ k))
    (h1 : ∀ (k : Fin K) (q : Fin C), x1 (ix2 k q) = W (ix2 k q)) (p : Fin B) (q : Fin C) :
    FloatOps.matmul (PlainDot.dims B K C wf) prec x0 x1 (constant ⟨2, ![B, C]⟩ .f32 0x00000000#32) (ix2 p q)
      = proj X W (ix2 ⟨b * B + p.val, hrow p⟩ q) := by
  rw [PlainDot.matmul_zero_apply wf prec x0 x1 p q, proj_apply]
  exact Finset.sum_congr rfl fun k _ => by rw [h0 p k, h1 k q]

end Idealize.ShloMosaic.RowBlockDot

end
-- ==== Proof.MatmulBlocks.lean ====
/-
  The two matrix-product regions, from blocks to the array.

  Each of the two regions runs over a grid of 50 points. At point `t` the body reads rows `2000 t … 2000 t + 1999` of a
  `100000 × 128` array `X` (the first window's block, whose index map is `t ↦ (t, 0)`) and the whole of a `128 × C` matrix `W`
  (the second window's block, index map `t ↦ (0, 0)`; `C = 128` in the first region, `C = 2` in the second), rounds both to a
  narrower format (the identity on the extended reals), multiplies them into a zero accumulator and stores the `2000 × C`
  product as block `t` of the output (index map `t ↦ (t, 0)`).

  Entry `(p, q)` of the product of a block of rows with `W` is `∑ k, X (2000 t + p, k) * W (k, q)`, which is entry
  `(2000 t + p, q)` of the product `X · W` of the whole arrays: so what point `t` writes back is block `t` of `X · W`
  (`flushed0_eq`, `flushed1_eq`). Row `r` of the output lies in the block of point `r / 2000`, so the 50 blocks cover the
  array (`cover0`, `cover1`), and the array after the region is `X · W` (`final0`, `final1`).
-/
import proofs.«182141_j12137577578917_2_alg».proof.Proof.Gen.KernelIdeal.Frame
import proofs.«182141_j12137577578917_2_alg».proof.Proof.LibRowBlockDot
import Idealize.ShloMosaic.Lib.Pipeline.Value

noncomputable section

namespace Cert.KernelIdeal.Blocks

open Idealize.ShloMosaic Idealize.ShloMosaic.TcCoe Idealize.SL.Sem Cert.KernelIdeal Cert.KernelIdeal.Gen
open Idealize.ShloMosaic.ValueIdx

namespace Matmul

/-- The body's loads and its store start at offset `(0, 0)` of their buffers. -/
theorem offsets_zero : (![0, 0] : Fin 2 → Nat) = fun _ => 0 := funext fun a => by fin_cases a <;> rfl

/-! ## The first region: `[100000, 128] · [128, 128]` -/

/-- The index maps over the grid: the row operand's and the output's block index at point `t` is `(t, 0)`, the
    matrix's is `(0, 0)`. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of block `t` is a row of the array: `2000 t + p < 100000` for `t < 50`, `p < 2000`. -/
theorem row_lt0 (t : Fin cfg0.N) (p : Fin 2000) : t.val * 2000 + p.val < 100000 := by
  have ht : t.val < 50 := t.isLt
  have hp : p.val < 2000 := p.isLt
  omega

/-- The body's product at `(p, q)`: when `x0` holds rows `2000 b …` of `X` and `x1` holds `W`, it is entry
    `(2000 b + p, q)` of `X · W` (rounding to the narrower format is the identity on the extended reals). -/
theorem pay0_apply (X : S100000x128.Idx → EReal) (W : S128x128.Idx → EReal)
    (x0 : Vec Ideal S2000x128 .f32) (x1 : Vec Ideal S128x128 .f32) (b : Nat)
    (hrow : ∀ p : Fin 2000, b * 2000 + p.val < 100000)
    (h0 : ∀ (p : Fin 2000) (k : Fin 128), x0 (ix2 p k) = X (ix2 ⟨b * 2000 + p.val, hrow p⟩ k))
    (h1 : ∀ (k : Fin 128) (q : Fin 128), x1 (ix2 k q) = W (ix2 k q)) (p : Fin 2000) (q : Fin 128) :
    k0_pay1 (F := Ideal) x0 x1 (ix2 p q)
      = RowBlockDot.proj (N := 100000) (K := 128) (C := 128) X W (ix2 ⟨b * 2000 + p.val, hrow p⟩ q) :=
  RowBlockDot.matmul_block (N := 100000) (B := 2000) dot_S2000x128_S128x128_S2000x128_1_0_0_1_n_n_wf none X W x0 x1 b
    hrow h0 h1 p q

section
variable (V : (c : Dev nD) → (b : Ref sig .tc) → Buf (Elt Ideal) ((c : Thread nD τ).loc b))

/-- The row operand's block at point `t`, at `(p, k)`, is the array at `(2000 t + p, k)`: a block's coordinate is its block
    index times the block's size plus the coordinate inside the block. -/
theorem rows_block0 (c : Dev nD) (t : Fin cfg0.N) (p : Fin 2000) (k : Fin 128) :
    (iblk0 V c 0 t : Vec Ideal S2000x128 .f32) (ix2 p k) = V c main_arg0 (ix2 ⟨t.val * 2000 + p.val, row_lt0 t p⟩ k) := by
  obtain ⟨e0, e1, -⟩ := index_maps0 t
  show V c main_arg0 (((cfg0.win 0).blk t).view.emb (ix2 p k)) = V c main_arg0 _
  refine congrArg _ ?_
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The matrix's block at every point is the whole matrix. -/
theorem whole_block0 (c : Dev nD) (t : Fin cfg0.N) (k : Fin 128) (q : Fin 128) :
    (iblk0 V c 1 t : Vec Ideal S128x128 .f32) (ix2 k q) = V c main_arg2 (ix2 k q) := by
  obtain ⟨-, -, e2, e3, -⟩ := index_maps0 t
  show V c main_arg2 (((cfg0.win 1).blk t).view.emb (ix2 k q)) = V c main_arg2 _
  refine congrArg _ ?_
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Entry `(p, q)` of the output's block at point `t` sits at `(2000 t + p, q)` of the output array. -/
theorem out_emb0 (t : Fin cfg0.N) (p : Fin 2000) (q : Fin 128) :
    ((cfg0.win 2).blk t).view.emb (ix2 p q) = (ix2 ⟨t.val * 2000 + p.val, row_lt0 t p⟩ q : S100000x128.Idx) := by
  obtain ⟨-, -, -, -, e4, e5⟩ := index_maps0 t
  funext a; apply Fin.ext
  match a with
  | ⟨0, _⟩ => show win0_2.index t (0 : Fin 2) * 2000 + 1 * p.val = t.val * 2000 + p.val; rw [e4]; omega
  | ⟨1, _⟩ => show win0_2.index t (1 : Fin 2) * 128 + 1 * q.val = q.val; rw [e5]; omega

/-- What point `t` writes back is block `t` of the product of the two arrays as the region finds them. -/
theorem flushed0_eq (c : Dev nD) (t : Fin cfg0.N) :
    (dat0 (F := Ideal) V c).flushed 2 t = ((cfg0.win 2).blk t).view.read (Elt Ideal)
      (RowBlockDot.proj (N := 100000) (K := 128) (C := 128) (V c main_arg0) (V c main_arg2)) := by
  show (cfg0.win 2).cut (grid0.coords t) ((dat0 V c).after 2 t) = _
  rw [after0_2]
  unfold out0_2
  rw [View.canon_unit_zero offsets_zero]
  simp only [View.ld_unit_zero (S := S2000x128) offsets_zero, View.ld_unit_zero (S := S128x128) offsets_zero]
  refine funext fun (j : S2000x128.Idx) => ?_
  obtain ⟨p, q, rfl⟩ : ∃ (p : Fin 2000) (q : Fin 128), j = ix2 p q := ⟨j 0, j 1, eq_ix2 j⟩
  show k0_pay1 (iblk0 V c 0 t) (iblk0 V c 1 t) (ix2 p q)
    = RowBlockDot.proj (V c main_arg0) (V c main_arg2) (((cfg0.win 2).blk t).view.emb (ix2 p q))
  exact (pay0_apply (V c main_arg0) (V c main_arg2) (iblk0 V c 0 t) (iblk0 V c 1 t) t.val (row_lt0 t)
    (rows_block0 V c t) (whole_block0 V c t) p q).trans (congrArg _ (out_emb0 t p q).symm)

end

/-- An index of the output array is in point `t`'s block iff each coordinate is in the block's range on its axis. -/
theorem mem_block0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- The blocks cover the output: row `r` is in the block of point `r / 2000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < 50; omega⟩, rfl⟩
  obtain ⟨-, -, -, -, e4, e5⟩ := index_maps0 t
  refine ⟨t, flush0_2 t, ?_⟩
  rw [mem_block0]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 128 ≤ (i 1).val ∧ (i 1).val < win0_2.index t (1 : Fin 2) * 128 + 128
    rw [e5]; omega

/-! ## The second region: `[100000, 128] · [128, 2]` -/

/-- The index maps over the grid: the row operand's and the output's block index at point `t` is `(t, 0)`, the
    matrix's is `(0, 0)`. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of block `t` is a row of the array: `2000 t + p < 100000` for `t < 50`, `p < 2000`. -/
theorem row_lt1 (t : Fin cfg1.N) (p : Fin 2000) : t.val * 2000 + p.val < 100000 := by
  have ht : t.val < 50 := t.isLt
  have hp : p.val < 2000 := p.isLt
  omega

/-- The body's product at `(p, q)`: when `x0` holds rows `2000 b …` of `X` and `x1` holds `W`, it is entry
    `(2000 b + p, q)` of `X · W` (the cast of the row block's shape to itself and the rounding to the narrower format are
    both the identity). -/
theorem pay1_apply (X : S100000x128.Idx → EReal) (W : S128x2.Idx → EReal)
    (x0 : Vec Ideal S2000x128 .f32) (x1 : Vec Ideal S128x2 .f32) (b : Nat)
    (hrow : ∀ p : Fin 2000, b * 2000 + p.val < 100000)
    (h0 : ∀ (p : Fin 2000) (k : Fin 128), x0 (ix2 p k) = X (ix2 ⟨b * 2000 + p.val, hrow p⟩ k))
    (h1 : ∀ (k : Fin 128) (q : Fin 2), x1 (ix2 k q) = W (ix2 k q)) (p : Fin 2000) (q : Fin 2) :
    k1_pay1 (F := Ideal) x0 x1 (ix2 p q)
      = RowBlockDot.proj (N := 100000) (K := 128) (C := 2) X W (ix2 ⟨b * 2000 + p.val, hrow p⟩ q) := by
  unfold k1_pay1
  simp only [shapeCast_self]
  exact RowBlockDot.matmul_block (N := 100000) (B := 2000) dot_S2000x128_S128x2_S2000x2_1_0_0_1_n_n_wf none X W x0 x1 b
    hrow h0 h1 p q

section
variable (V : (c : Dev nD) → (b : Ref sig .tc) → Buf (Elt Ideal) ((c : Thread nD τ).loc b))

/-- The row operand's block at point `t`, at `(p, k)`, is the array at `(2000 t + p, k)`. -/
theorem rows_block1 (c : Dev nD) (t : Fin cfg1.N) (p : Fin 2000) (k : Fin 128) :
    (iblk1 V c 0 t : Vec Ideal S2000x128 .f32) (ix2 p k) = V c main_v46 (ix2 ⟨t.val * 2000 + p.val, row_lt1 t p⟩ k) := by
  obtain ⟨e0, e1, -⟩ := index_maps1 t
  show V c main_v46 (((cfg1.win 0).blk t).view.emb (ix2 p k)) = V c main_v46 _
  refine congrArg _ ?_
  funext a; apply Fin.ext
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The matrix's block at every point is the whole matrix. -/
theorem whole_block1 (c : Dev nD) (t : Fin cfg1.N) (k : Fin 128) (q : Fin 2) :
    (iblk1 V c 1 t : Vec Ideal S128x2 .f32) (ix2 k q) = V c main_arg4 (ix2 k q) := by
  obtain ⟨-, -, e2, e3, -⟩ := index_maps1 t
  show V c main_arg4 (((cfg1.win 1).blk t).view.emb (ix2 k q)) = V c main_arg4 _
  refine congrArg _ ?_
  funext a; apply Fin.ext
  match a with
  | ⟨0, _⟩ => show win1_1.index t (0 : Fin 2) * 128 + 1 * k.val = k.val; rw [e2]; omega
  | ⟨1, _⟩ => show win1_1.index t (1 : Fin 2) * 2 + 1 * q.val = q.val; rw [e3]; omega

/-- Entry `(p, q)` of the output's block at point `t` sits at `(2000 t + p, q)` of the output array. -/
theorem out_emb1 (t : Fin cfg1.N) (p : Fin 2000) (q : Fin 2) :
    ((cfg1.win 2).blk t).view.emb (ix2 p q) = (ix2 ⟨t.val * 2000 + p.val, row_lt1 t p⟩ q : S100000x2.Idx) := by
  obtain ⟨-, -, -, -, e4, e5⟩ := index_maps1 t
  funext a; apply Fin.ext
  match a with
  | ⟨0, _⟩ => show win1_2.index t (0 : Fin 2) * 2000 + 1 * p.val = t.val * 2000 + p.val; rw [e4]; omega
  | ⟨1, _⟩ => show win1_2.index t (1 : Fin 2) * 2 + 1 * q.val = q.val; rw [e5]; omega

/-- What point `t` writes back is block `t` of the product of the two arrays as the region finds them. -/
theorem flushed1_eq (c : Dev nD) (t : Fin cfg1.N) :
    (dat1 (F := Ideal) V c).flushed 2 t = ((cfg1.win 2).blk t).view.read (Elt Ideal)
      (RowBlockDot.proj (N := 100000) (K := 128) (C := 2) (V c main_v46) (V c main_arg4)) := by
  show (cfg1.win 2).cut (grid1.coords t) ((dat1 V c).after 2 t) = _
  rw [after1_2]
  unfold out1_2
  rw [View.canon_unit_zero offsets_zero]
  simp only [View.ld_unit_zero (S := S2000x128) offsets_zero, View.ld_unit_zero (S := S128x2) offsets_zero]
  refine funext fun (j : S2000x2.Idx) => ?_
  obtain ⟨p, q, rfl⟩ : ∃ (p : Fin 2000) (q : Fin 2), j = ix2 p q := ⟨j 0, j 1, eq_ix2 j⟩
  show k1_pay1 (iblk1 V c 0 t) (iblk1 V c 1 t) (ix2 p q)
    = RowBlockDot.proj (V c main_v46) (V c main_arg4) (((cfg1.win 2).blk t).view.emb (ix2 p q))
  exact (pay1_apply (V c main_v46) (V c main_arg4) (iblk1 V c 0 t) (iblk1 V c 1 t) t.val (row_lt1 t)
    (rows_block1 V c t) (whole_block1 V c t) p q).trans (congrArg _ (out_emb1 t p q).symm)

end

/-- An index of the output array is in point `t`'s block iff each coordinate is in the block's range on its axis. -/
theorem mem_block1 (t : Fin cfg1.N) (i : S100000x2.Idx) :
    i ∈ ((cfg1.win 2).blk t).view.set ↔ ∀ a : Fin 2, win1_2.index t a * S2000x2.size a ≤ (i a).val
      ∧ (i a).val < win1_2.index t a * S2000x2.size a + S2000x2.size a := by
  show i ∈ ((View.whole main_v47).slice (win1_2.rect t)).set ↔ _
  rw [View.set_slice_whole, Rect.mem_set_unit]
  exact Iff.rfl

/-- The blocks cover the output: row `r` is in the block of point `r / 2000`. -/
theorem cover1 (i : S100000x2.Idx) :
    ∃ t : Fin cfg1.N, (cfg1.win 2).flush t = true ∧ i ∈ ((cfg1.win 2).blk t).view.set := by
  have hi0 : (i 0).val < 100000 := (i 0).isLt
  have hi1 : (i 1).val < 2 := (i 1).isLt
  obtain ⟨t, ht⟩ : ∃ t : Fin cfg1.N, t.val = (i 0).val / 2000 :=
    ⟨⟨(i 0).val / 2000, by show (i 0).val / 2000 < 50; omega⟩, rfl⟩
  obtain ⟨-, -, -, -, e4, e5⟩ := index_maps1 t
  refine ⟨t, flush1_2 t, ?_⟩
  rw [mem_block1]
  intro a
  match a with
  | ⟨0, _⟩ =>
    show win1_2.index t (0 : Fin 2) * 2000 ≤ (i 0).val ∧ (i 0).val < win1_2.index t (0 : Fin 2) * 2000 + 2000
    rw [e4, ht]; omega
  | ⟨1, _⟩ =>
    show win1_2.index t (1 : Fin 2) * 2 ≤ (i 1).val ∧ (i 1).val < win1_2.index t (1 : Fin 2) * 2 + 2
    rw [e5]; omega

end Matmul

/-- THE FIRST REGION'S OUTPUT after the region is the product of its two arrays as the region finds them. -/
theorem final0 (V : (c : Dev nD) → (b : Ref sig .tc) → Buf (Elt Ideal) ((c : Thread nD τ).loc b)) (c : Dev nD) :
    (dat0 (F := Ideal) V c).arrAt 2 cfg0.N
      = RowBlockDot.proj (N := 100000) (K := 128) (C := 128) (V c main_arg0) (V c main_arg2) :=
  (dat0 V c).arrAt_eq_of_cover 2 _ (fun t _ => Matmul.flushed0_eq V c t) Matmul.cover0

/-- THE SECOND REGION'S OUTPUT after the region is the product of its two arrays as the region finds them. -/
theorem final1 (V : (c : Dev nD) → (b : Ref sig .tc) → Buf (Elt Ideal) ((c : Thread nD τ).loc b)) (c : Dev nD) :
    (dat1 (F := Ideal) V c).arrAt 2 cfg1.N
      = RowBlockDot.proj (N := 100000) (K := 128) (C := 2) (V c main_v46) (V c main_arg4) :=
  (dat1 V c).arrAt_eq_of_cover 2 _ (fun t _ => Matmul.flushed1_eq V c t) Matmul.cover1

end Cert.KernelIdeal.Blocks

end
-- ==== Proof.LibTypedRef.lean ====
/-
  Typed buffer references: the transport between a value's type and its buffer's declared type.

  An operation of an outlined function reads and writes its buffers through a typed reference, which carries a proof
  that the buffer's declared type is the value's type and moves contents along it. The transport there and back is
  the identity, and a transported value equals any value it is heterogeneously equal to: both by substituting the
  type equation, with nothing computed.
-/
import Idealize.ShloMosaic.Lib.StableHlo

noncomputable section

namespace Idealize.ShloMosaic.StableHlo.TRef

variable {sig : RefSig} {Val : EltTy → Type} {T : BufTy}

/-- Contents moved to the buffer's declared type and back are the contents. -/
theorem ofBuf_toBuf (x : TRef sig T) (w : T.Contents Val) : x.ofBuf (x.toBuf w) = w := by
  obtain ⟨r, rfl, _, _⟩ := x
  rfl

/-- Buffer contents read at the value's type are any value they are heterogeneously equal to. -/
theorem ofBuf_eq_of_heq (x : TRef sig T) (v : x.ref.ty.Contents Val) (w : T.Contents Val) (h : HEq v w) :
    x.ofBuf v = w := by
  obtain ⟨r, rfl, _, _⟩ := x
  exact eq_of_heq h

/-- A value written at the buffer's declared type is any buffer contents it is heterogeneously equal to. -/
theorem toBuf_eq_of_heq (x : TRef sig T) (w : T.Contents Val) (v : x.ref.ty.Contents Val) (h : HEq w v) :
    x.toBuf w = v := by
  obtain ⟨r, rfl, _, _⟩ := x
  exact eq_of_heq h

end Idealize.ShloMosaic.StableHlo.TRef

end
-- ==== Proof.Chain.lean ====
/-
  The idealized kernel's result as the reference's stages of the arguments.

  The run's fold over the launch memory is walked boundary by boundary. Before the first grid region the host computes,
  from the edge list, the source and destination node of every edge with the self loops appended, the degree of every
  node, its inverse square root where the degree is positive, and the edge weights (the product of the two ends' values):
  the same operations, on the same argument, as the reference's first layer. The first region leaves the product of the
  node features with the first weight matrix; the host gathers its rows along the edges, scales them by the edge
  weights, adds them up at the destination nodes and adds the bias: the reference's first layer. The second region
  multiplies that by the second weight matrix, the host aggregates again with the same edge weights (the reference
  computes them a second time, by the same operations), and the third region takes the softmax of every row (read in the module after this one).
  At every boundary each buffer a later operation reads is named as the reference's stage of the arguments, so each step
  compares one stretch of operations with the same stretch of the reference.
-/
import proofs.«182141_j12137577578917_2_alg».proof.Proof.Gen.KernelIdeal.Frame
import proofs.«182141_j12137577578917_2_alg».proof.Proof.RefReadP
import proofs.«182141_j12137577578917_2_alg».proof.Proof.LibRowBlockDot
import proofs.«182141_j12137577578917_2_alg».proof.Proof.MatmulBlocks
import proofs.«182141_j12137577578917_2_alg».proof.Proof.LibTypedRef

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-- A buffer none of a stretch's operations writes keeps its contents. -/
macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Before the first region -/

set_option maxHeartbeats 4000000 in
/-- The edges' source nodes, the self loops appended. -/
theorem W1_v3 : W1 m ρ c (Proc.devRef .tc main_v3) = val_main_v4 (F := Ideal) (m ((c : Thread nD τ).loc main_arg1)) := by
  show StableHlo.after hostOps0 (W0 m ρ c) (Proc.devRef .tc main_v3) = _
  dsimp only [hostOps0]
  after_results
  rfl

set_option maxHeartbeats 4000000 in
/-- The edges' destination nodes, the self loops appended. -/
theorem W1_v6 : W1 m ρ c (Proc.devRef .tc main_v6) = val_main_v7 (F := Ideal) (m ((c : Thread nD τ).loc main_arg1)) := by
  show StableHlo.after hostOps0 (W0 m ρ c) (Proc.devRef .tc main_v6) = _
  dsimp only [hostOps0]
  after_results
  rfl

set_option maxHeartbeats 8000000 in
/-- Which nodes have a positive degree (the degree: a one added up at every edge's destination). -/
theorem W1_v12 : W1 m ρ c (Proc.devRef .tc main_v12) = val_main_v13 (F := Ideal) (m ((c : Thread nD τ).loc main_arg1)) := by
  show StableHlo.after hostOps0 (W0 m ρ c) (Proc.devRef .tc main_v12) = _
  dsimp only [hostOps0]
  after_results
  rfl

set_option maxHeartbeats 8000000 in
/-- The inverse square roots of the degrees. -/
theorem W1_v13 : W1 m ρ c (Proc.devRef .tc main_v13) = val_main_v14 (F := Ideal) (m ((c : Thread nD τ).loc main_arg1)) := by
  show StableHlo.after hostOps0 (W0 m ρ c) (Proc.devRef .tc main_v13) = _
  dsimp only [hostOps0]
  after_results
  rfl

/-- The zero that stands where the degree is not positive. -/
theorem W1_cst_2 : W1 m ρ c (Proc.devRef .tc main_cst_2) = val_main_cst_2 (F := Ideal) := by
  show StableHlo.after hostOps0 (W0 m ρ c) (Proc.devRef .tc main_cst_2) = _
  dsimp only [hostOps0]
  after_results
  rfl

set_option maxHeartbeats 4000000 in
/-- Every node's value: the inverse square root of its degree where the degree is positive, zero elsewhere. The three
    operations are an outlined function's: each reads and writes its buffers at the value's own type, and the transport
    between that type and the buffer's is the identity. -/
theorem W2_v14 : W2 m ρ c (Proc.devRef .tc main_v14) = val_main_v15 (F := Ideal) (m ((c : Thread nD τ).loc main_arg1)) := by
  have h12 := W1_v12 m ρ c
  have h13 := W1_v13 m ρ c
  have hc := W1_cst_2 m ρ c
  show StableHlo.after hostOps0_1 (W1 m ρ c) (Proc.devRef .tc main_v14) = _
  generalize W1 m ρ c = V at h12 h13 hc ⊢
  dsimp only [hostOps0_1]
  after_results
  simp only [StableHlo.TRef.ofBuf_toBuf]
  rw [StableHlo.TRef.ofBuf_eq_of_heq (StableHlo.TRef.of main_v12 : StableHlo.TRef sig ⟨S100000, .i1⟩) _ _ (heq_of_eq h12),
    StableHlo.TRef.ofBuf_eq_of_heq (StableHlo.TRef.of main_v13 : StableHlo.TRef sig ⟨S100000, .f32⟩) _ _ (heq_of_eq h13),
    StableHlo.TRef.ofBuf_eq_of_heq (StableHlo.TRef.of main_cst_2 : StableHlo.TRef sig ⟨S_, .f32⟩) _ _ (heq_of_eq hc)]
  refine StableHlo.TRef.toBuf_eq_of_heq _ _ _ (heq_of_eq ?_)
  rfl

theorem W2_v3 : W2 m ρ c (Proc.devRef .tc main_v3) = val_main_v4 (F := Ideal) (m ((c : Thread nD τ).loc main_arg1)) :=
  (show W2 m ρ c (Proc.devRef .tc main_v3) = W1 m ρ c (Proc.devRef .tc main_v3) by unwritten hostOps0_1).trans (W1_v3 m ρ c)

theorem W2_v6 : W2 m ρ c (Proc.devRef .tc main_v6) = val_main_v7 (F := Ideal) (m ((c : Thread nD τ).loc main_arg1)) :=
  (show W2 m ρ c (Proc.devRef .tc main_v6) = W1 m ρ c (Proc.devRef .tc main_v6) by unwritten hostOps0_1).trans (W1_v6 m ρ c)

set_option maxHeartbeats 16000000 in
/-- The edge weights: the product of the two ends' values. -/
theorem W3_v29 : W3 m ρ c (Proc.devRef .tc main_v29) = val_main_v30 (F := Ideal) (m ((c : Thread nD τ).loc main_arg1)) := by
  have h14 := W2_v14 m ρ c
  have h3 := W2_v3 m ρ c
  have h6 := W2_v6 m ρ c
  show StableHlo.after hostOps0_2 (W2 m ρ c) (Proc.devRef .tc main_v29) = _
  generalize W2 m ρ c = V at h14 h3 h6 ⊢
  dsimp only [hostOps0_2]
  after_results
  rw [h14, h3, h6]
  rfl

theorem W3_v3 : W3 m ρ c (Proc.devRef .tc main_v3) = val_main_v4 (F := Ideal) (m ((c : Thread nD τ).loc main_arg1)) :=
  (show W3 m ρ c (Proc.devRef .tc main_v3) = W2 m ρ c (Proc.devRef .tc main_v3) by unwritten hostOps0_2).trans (W2_v3 m ρ c)

theorem W3_v6 : W3 m ρ c (Proc.devRef .tc main_v6) = val_main_v7 (F := Ideal) (m ((c : Thread nD τ).loc main_arg1)) :=
  (show W3 m ρ c (Proc.devRef .tc main_v6) = W2 m ρ c (Proc.devRef .tc main_v6) by unwritten hostOps0_2).trans (W2_v6 m ρ c)

/-! An argument no host operation writes is as launched when the first region is entered. -/

theorem W3_arg0 : W3 m ρ c (Proc.devRef .tc main_arg0) = (m ((c : Thread nD τ).loc main_arg0)) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = (m ((c : Thread nD τ).loc main_arg0)) := rfl

theorem W3_arg2 : W3 m ρ c (Proc.devRef .tc main_arg2) = (m ((c : Thread nD τ).loc main_arg2)) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = (m ((c : Thread nD τ).loc main_arg2)) := rfl

theorem W3_arg3 : W3 m ρ c (Proc.devRef .tc main_arg3) = (m ((c : Thread nD τ).loc main_arg3)) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = (m ((c : Thread nD τ).loc main_arg3)) := rfl

theorem W3_arg4 : W3 m ρ c (Proc.devRef .tc main_arg4) = (m ((c : Thread nD τ).loc main_arg4)) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = (m ((c : Thread nD τ).loc main_arg4)) := rfl

theorem W3_arg5 : W3 m ρ c (Proc.devRef .tc main_arg5) = (m ((c : Thread nD τ).loc main_arg5)) :=
  calc W3 m ρ c (Proc.devRef .tc main_arg5)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = (m ((c : Thread nD τ).loc main_arg5)) := rfl

/-! ## The first region and the first aggregation -/

/-- The first region leaves the product of the node features with the first weight matrix: the reference's first stage. -/
theorem W4_v30 : W4 m ρ c (Proc.devRef .tc main_v30) = val_main_v0 (F := Ideal) (m ((c : Thread nD τ).loc main_arg0)) (m ((c : Thread nD τ).loc main_arg2)) := by
  refine (W4_arr m ρ c 2).trans ((Blocks.final0 (V3 m ρ) c).trans ?_)
  rw [show V3 m ρ c main_arg0 = (m ((c : Thread nD τ).loc main_arg0)) from W3_arg0 m ρ c, show V3 m ρ c main_arg2 = (m ((c : Thread nD τ).loc main_arg2)) from W3_arg2 m ρ c]
  exact (RowBlockDot.dotGeneral_eq_proj Cert.ReferenceIdeal.Facts₀.dot_S100000x128_S128x128_S100000x128_1_0_0_1_n_n_wf none _ _ _).symm

theorem W4_v3 : W4 m ρ c (Proc.devRef .tc main_v3) = val_main_v4 (F := Ideal) (m ((c : Thread nD τ).loc main_arg1)) :=
  (W4_of_ne m ρ c main_v3 (by decide)).trans (W3_v3 m ρ c)
theorem W4_v6 : W4 m ρ c (Proc.devRef .tc main_v6) = val_main_v7 (F := Ideal) (m ((c : Thread nD τ).loc main_arg1)) :=
  (W4_of_ne m ρ c main_v6 (by decide)).trans (W3_v6 m ρ c)
theorem W4_v29 : W4 m ρ c (Proc.devRef .tc main_v29) = val_main_v30 (F := Ideal) (m ((c : Thread nD τ).loc main_arg1)) :=
  (W4_of_ne m ρ c main_v29 (by decide)).trans (W3_v29 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

set_option maxHeartbeats 16000000 in
/-- The first layer: the rows of the product gathered along the edges, scaled by the edge weights, added up at the
    destination nodes, plus the bias. -/
theorem W5_v46 : W5 m ρ c (Proc.devRef .tc main_v46)
    = val_main_v46 (F := Ideal) (m ((c : Thread nD τ).loc main_arg0)) (m ((c : Thread nD τ).loc main_arg1)) (m ((c : Thread nD τ).loc main_arg2)) (m ((c : Thread nD τ).loc main_arg3)) := by
  have h30 := W4_v30 m ρ c
  have h3 := W4_v3 m ρ c
  have h6 := W4_v6 m ρ c
  have h29 := W4_v29 m ρ c
  have hb := W4_arg3 m ρ c
  show StableHlo.after hostOps1 (W4 m ρ c) (Proc.devRef .tc main_v46) = _
  generalize W4 m ρ c = V at h30 h3 h6 h29 hb ⊢
  dsimp only [hostOps1]
  after_results
  rw [h30, h3, h6, h29, hb]
  rfl

theorem W5_v3 : W5 m ρ c (Proc.devRef .tc main_v3) = val_main_v4 (F := Ideal) (m ((c : Thread nD τ).loc main_arg1)) :=
  (show W5 m ρ c (Proc.devRef .tc main_v3) = W4 m ρ c (Proc.devRef .tc main_v3) by unwritten hostOps1).trans (W4_v3 m ρ c)
theorem W5_v6 : W5 m ρ c (Proc.devRef .tc main_v6) = val_main_v7 (F := Ideal) (m ((c : Thread nD τ).loc main_arg1)) :=
  (show W5 m ρ c (Proc.devRef .tc main_v6) = W4 m ρ c (Proc.devRef .tc main_v6) by unwritten hostOps1).trans (W4_v6 m ρ c)
theorem W5_v29 : W5 m ρ c (Proc.devRef .tc main_v29) = val_main_v30 (F := Ideal) (m ((c : Thread nD τ).loc main_arg1)) :=
  (show W5 m ρ c (Proc.devRef .tc main_v29) = W4 m ρ c (Proc.devRef .tc main_v29) by unwritten hostOps1).trans (W4_v29 m ρ c)
theorem W5_arg4 : W5 m ρ c (Proc.devRef .tc main_arg4) = (m ((c : Thread nD τ).loc main_arg4)) :=
  (show W5 m ρ c (Proc.devRef .tc main_arg4) = W4 m ρ c (Proc.devRef .tc main_arg4) by unwritten hostOps1).trans (W4_arg4 m ρ c)
theorem W5_arg5 : W5 m ρ c (Proc.devRef .tc main_arg5) = (m ((c : Thread nD τ).loc main_arg5)) :=
  (show W5 m ρ c (Proc.devRef .tc main_arg5) = W4 m ρ c (Proc.devRef .tc main_arg5) by unwritten hostOps1).trans (W4_arg5 m ρ c)

/-! ## The second region and the second aggregation -/

/-- The second region leaves the product of the first layer with the second weight matrix. -/
theorem W6_v47 : W6 m ρ c (Proc.devRef .tc main_v47)
    = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Blocks.final1 (V5 m ρ) c).trans ?_)
  rw [show V5 m ρ c main_v46 = val_main_v46 (F := Ideal) (m ((c : Thread nD τ).loc main_arg0)) (m ((c : Thread nD τ).loc main_arg1)) (m ((c : Thread nD τ).loc main_arg2)) (m ((c : Thread nD τ).loc main_arg3)) from W5_v46 m ρ c,
    show V5 m ρ c main_arg4 = (m ((c : Thread nD τ).loc main_arg4)) from W5_arg4 m ρ c]
  exact (RowBlockDot.dotGeneral_eq_proj Cert.ReferenceIdeal.Facts₀.dot_S100000x128_S128x2_S100000x2_1_0_0_1_n_n_wf none _ _ _).symm

/-- The reference forms the edges' ends and the edge weights a second time for its second layer, by the same operations
    of the same argument. -/
theorem src_again : val_main_v51 (F := Ideal) = val_main_v4 (F := Ideal) := funext fun _ => rfl
theorem dst_again : val_main_v54 (F := Ideal) = val_main_v7 (F := Ideal) := funext fun _ => rfl
set_option maxHeartbeats 4000000 in
theorem weights_again : val_main_v77 (F := Ideal) = val_main_v30 (F := Ideal) := funext fun _ => rfl

theorem W6_v3 : W6 m ρ c (Proc.devRef .tc main_v3) = val_main_v51 (F := Ideal) (m ((c : Thread nD τ).loc main_arg1)) :=
  ((W6_of_ne m ρ c main_v3 (by decide)).trans (W5_v3 m ρ c)).trans (congrFun src_again.symm _)
theorem W6_v6 : W6 m ρ c (Proc.devRef .tc main_v6) = val_main_v54 (F := Ideal) (m ((c : Thread nD τ).loc main_arg1)) :=
  ((W6_of_ne m ρ c main_v6 (by decide)).trans (W5_v6 m ρ c)).trans (congrFun dst_again.symm _)
theorem W6_v29 : W6 m ρ c (Proc.devRef .tc main_v29) = val_main_v77 (F := Ideal) (m ((c : Thread nD τ).loc main_arg1)) :=
  ((W6_of_ne m ρ c main_v29 (by decide)).trans (W5_v29 m ρ c)).trans (congrFun weights_again.symm _)
theorem W6_arg5 : W6 m ρ c (Proc.devRef .tc main_arg5) = (m ((c : Thread nD τ).loc main_arg5)) :=
  (W6_of_ne m ρ c main_arg5 (by decide)).trans (W5_arg5 m ρ c)

set_option maxHeartbeats 16000000 in
/-- The second layer: the same aggregation of the second product, plus the second bias. -/
theorem W7_v63 : W7 m ρ c (Proc.devRef .tc main_v63)
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h47 := W6_v47 m ρ c
  have h3 := W6_v3 m ρ c
  have h6 := W6_v6 m ρ c
  have h29 := W6_v29 m ρ c
  have hb := W6_arg5 m ρ c
  show StableHlo.after hostOps2 (W6 m ρ c) (Proc.devRef .tc main_v63) = _
  generalize W6 m ρ c = V at h47 h3 h6 h29 hb ⊢
  dsimp only [hostOps2]
  after_results
  rw [h47, h3, h6, h29, hb]
  rfl

end Cert.KernelIdeal.Chain

end
-- ==== Proof.SoftmaxSpec.lean ====
/-
  The row-wise softmax of an `[a, b]` matrix on the extended reals.

  Row `r`'s maximum is the greatest of its `b` entries (and of `-∞`, the word `0xFF800000`); the softmax at `(r, q)` is
  `exp (y (r, q) - max_r)` divided by the sum over the row of `exp (y (r, k) - max_r)`. An entry depends on its own row
  only, so the softmax of a block of consecutive rows is that block of the softmax of the whole matrix.
-/
import Idealize.ShloMosaic.PureOps.Ideal
import Idealize.ShloMosaic.Lib.ValueIdx

noncomputable section

namespace Cert.Softmax

open Idealize.ShloMosaic Idealize.ShloMosaic.ValueIdx

/-- The greatest entry of row `r` (and `-∞`). -/
def rowMax {a b : Nat} (y : (⟨2, ![a, b]⟩ : Shape).Idx → EReal) (r : Fin a) : EReal :=
  (Finset.univ : Finset (Fin b)).fold max (Ideal.ofBits .f32 0xFF800000#32) (fun k => y (ix2 r k))

/-- The softmax along the rows: `exp (y - rowMax) / ∑ exp (y - rowMax)`. -/
def rows {a b : Nat} (y : (⟨2, ![a, b]⟩ : Shape).Idx → EReal) : (⟨2, ![a, b]⟩ : Shape).Idx → EReal :=
  fun i => Ideal.div (Ideal.exp (y i - rowMax y (i 0)))
    (∑ k : Fin b, Ideal.exp (y (ix2 (n0 := a) (n1 := b) (i 0) k) - rowMax y (i 0)))

/-- The softmax at named coordinates. -/
theorem rows_apply {a b : Nat} (y : (⟨2, ![a, b]⟩ : Shape).Idx → EReal) (r : Fin a) (q : Fin b) :
    rows y (ix2 r q)
      = Ideal.div (Ideal.exp (y (ix2 r q) - rowMax y r)) (∑ k : Fin b, Ideal.exp (y (ix2 r k) - rowMax y r)) := rfl

/-- A block of `B` consecutive rows: when `yb` holds rows `t * B …` of `Y`, the softmax of `yb` at `(p, q)` is the softmax
    of `Y` at `(t * B + p, q)`. -/
theorem rows_block {a b B : Nat} (Y : (⟨2, ![a, b]⟩ : Shape).Idx → EReal) (yb : (⟨2, ![B, b]⟩ : Shape).Idx → EReal) (t : Nat)
    (hrow : ∀ p : Fin B, t * B + p.val < a)
    (h : ∀ (p : Fin B) (k : Fin b), yb (ix2 p k) = Y (ix2 ⟨t * B + p.val, hrow p⟩ k)) (p : Fin B) (q : Fin b) :
    rows yb (ix2 p q) = rows Y (ix2 ⟨t * B + p.val, hrow p⟩ q) := by
  have hm : rowMax yb p = rowMax Y ⟨t * B + p.val, hrow p⟩ := by
    unfold rowMax
    exact congrArg (fun f => Finset.fold max (Ideal.ofBits .f32 0xFF800000#32) f (Finset.univ : Finset (Fin b)))
      (funext fun k => h p k)
  rw [rows_apply, rows_apply, hm, h p q]
  exact congrArg _ (Finset.sum_congr rfl fun k _ => by rw [h p k])

end Cert.Softmax

end
-- ==== Proof.LibKeepdims.lean ====
/-
  Row statistics kept as a column.

  A row-wise reduction of an `[a, b]` matrix gives one number per row; kept as an `[a, 1]` column and broadcast
  back over the `b` columns, every entry of row `p` sees row `p`'s number. These are the three index facts of
  that pattern: the reduced index with the column put back, the vector cast to a column, the column broadcast
  over the columns.
-/
import Idealize.ShloMosaic.PureOps.Ideal
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- The row index `p` with column `k` put back is `(p, k)`. -/
theorem lift_row {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the columns of an `[a, b]` matrix, read at row `p`, is the sum of that row's entries. -/
theorem rowSum_apply {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-- An `[a]` vector cast to an `[a, 1]` column reads, at `(p, u)`, the vector at `p`. -/
theorem shapeCast_a_a1_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibRowMax.lean ====
/-
  A maximum along the columns of a matrix, read at a row.

  The largest entry of row `p` of an `[a, b]` matrix — taken by the vector unit's reduction or by the host's reduce with a
  `maximum` body — is the fold of `max`, from the reduction's initial value, over that row's entries `(p, k)`, in any
  order, since `max` commutes and associates. Stated for every extent.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«182141_j12137577578917_2_alg».proof.Proof.LibKeepdims

noncomputable section

namespace Idealize.ShloMosaic.RowMax

open Idealize.ShloMosaic Idealize.ShloMosaic.ValueIdx

/-- The vector unit's maximum along the columns of an `[a, b]` matrix, read at row `p`: the greatest of that row's
    entries and the initial value. -/
theorem rowMax_apply {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) (fun k => x (ix2 p k)) := by
  rw [Ideal.multiReduction_maximumf_single]
  have hf : (x ∘ h.lift (ix1 p)) = fun k : Fin b => x (ix2 p k) := funext fun k => congrArg x (Keepdims.lift_row h p k)
  exact congrArg (fun f => Finset.fold max (Ideal.ofBits φ acc) f (Finset.univ : Finset (Fin b))) hf

/-- The host's reduce with a maximum body along the columns of an `[a, b]` matrix, read at row `p`: the greatest of
    that row's entries and the initial value. -/
theorem hostRowMax_apply {a b : Nat} {φ : FTy} {u : Shape} (x : FVec Ideal ⟨2, ![a, b]⟩ φ) (init : FVec Ideal u φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) := funext fun k => congrArg x (Keepdims.lift_row h p k)
  exact congrArg (fun f => Finset.fold max (init (Shape.Idx.first hu)) f (Finset.univ : Finset (Fin b))) hf

end Idealize.ShloMosaic.RowMax

end
-- ==== Proof.SoftmaxBlocks.lean ====
/-
  The softmax region, from blocks to the array.

  The region's grid has ten points. Point `t` reads rows `10000 t … 10000 t + 9999` of the `[100000, 2]` input array and
  writes, as the same rows of the output array, the row softmax of that block: the maximum along the columns kept as a
  column and broadcast back, the exponential of the difference, its sum along the columns kept and broadcast the same way,
  the quotient. A row's softmax depends on that row only, so each block written is that block of the row softmax of the
  whole input array; the ten blocks tile the output array (row `r` is in the block of point `r / 10000`), so after the
  region the output array is the row softmax of the input array.
-/
import proofs.«182141_j12137577578917_2_alg».proof.Proof.Gen.KernelIdeal.Frame
import proofs.«182141_j12137577578917_2_alg».proof.Proof.SoftmaxSpec
import proofs.«182141_j12137577578917_2_alg».proof.Proof.LibKeepdims
import proofs.«182141_j12137577578917_2_alg».proof.Proof.LibRowMax
import Idealize.ShloMosaic.Lib.Pipeline.Value

noncomputable section

namespace Cert.KernelIdeal.Blocks

open Idealize.ShloMosaic Idealize.ShloMosaic.TcCoe Idealize.SL.Sem Cert.KernelIdeal Cert.KernelIdeal.Gen
open Idealize.ShloMosaic.ValueIdx

namespace SoftmaxRegion

theorem hz : (![0, 0] : Fin 2 → Nat) = fun _ => 0 := funext fun a => by fin_cases a <;> rfl

/-- A row statistic kept as a column and broadcast back over the columns reads, at `(p, q)`, the statistic of row `p`. -/
theorem keep_apply (v : FVec Ideal S10000 .f32) (p : Fin 10000) (q : Fin 2) :
    broadcastTo S10000x2 (shapeCast S10000x1 v shapeCasts_S10000_S10000x1) broadcasts_S10000x1_S10000x2 (ix2 p q) = v (ix1 p) :=
  (Keepdims.broadcastTo_a1_ab_apply _ broadcasts_S10000x1_S10000x2 p q).trans
    (Keepdims.shapeCast_a_a1_apply v shapeCasts_S10000_S10000x1 p 0)

/-- The body's payload of a block of 10000 rows is that block's row softmax: the maximum along the columns kept as a column
    is each row's maximum, the sum along the columns of the exponentials is each row's sum. -/
theorem pay_apply (x0 : Vec Ideal S10000x2 .f32) (p : Fin 10000) (q : Fin 2) :
    k2_pay1 x0 (ix2 p q) = Cert.Softmax.rows (a := 10000) (b := 2) x0 (ix2 p q) := by
  unfold k2_pay1
  rw [Cert.Softmax.rows_apply]
  simp only [shapeCast_self]
  have hm : ∀ k : Fin 2, broadcastTo S10000x2 (shapeCast S10000x1
      (multiReduction (F := Ideal) .maximumf [1] S10000 x0 0xFF800000#32 reduces_S10000x2_S10000 (.inl rfl) rfl)
      shapeCasts_S10000_S10000x1) broadcasts_S10000x1_S10000x2 (ix2 p k) = Cert.Softmax.rowMax x0 p := fun k =>
    (keep_apply _ p k).trans (RowMax.rowMax_apply x0 _ reduces_S10000x2_S10000 _ _ p)
  refine congrArg₂ Ideal.div (congrArg Ideal.exp (congrArg (fun z => x0 (ix2 p q) - z) (hm q))) ?_
  refine (keep_apply _ p q).trans ?_
  refine (Keepdims.rowSum_apply _ _ reduces_S10000x2_S10000 _ _ p).trans ?_
  exact Finset.sum_congr rfl fun k _ => congrArg Ideal.exp (congrArg (fun z => x0 (ix2 p k) - z) (hm k))

/-- The printed index maps, decided over the grid's ten points: point `t` reads and writes block `(t, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

section
variable (V : (c : Dev nD) → (b : Ref sig .tc) → Buf (Elt Ideal) ((c : Thread nD τ).loc b)) (c : Dev nD)

/-- The input window's block at point `t` is rows `10000 t … 10000 t + 9999` of the input array. -/
theorem iblk_apply (t : Fin cfg2.N) (p : Fin 10000) (q : Fin 2) (h : t.val * 10000 + p.val < 100000) :
    (iblk2 (F := Ideal) V c 0 t : Vec Ideal S10000x2 .f32) (ix2 p q)
      = (V c main_v63 : S100000x2.Idx → Elt Ideal .f32) (ix2 ⟨t.val * 10000 + p.val, h⟩ q) := by
  obtain ⟨e0, e1, -, -⟩ := idx_facts t
  unfold iblk2
  rw [View.read_apply]
  show V c main_v63 _ = V c main_v63 _
  congr 1
  funext a
  apply Fin.ext
  match a with
  | ⟨0, _⟩ => show win2_0.index t 0 * 10000 + 1 * p.val = t.val * 10000 + p.val; rw [e0]; omega
  | ⟨1, _⟩ => show win2_0.index t 1 * 2 + 1 * q.val = q.val; rw [e1]; omega

/-- WHAT POINT `t` WRITES BACK is block `t` of the row softmax of the whole input array. -/
theorem flushed_eq (t : Fin cfg2.N) :
    (dat2 (F := Ideal) V c).flushed 1 t
      = ((cfg2.win 1).blk t).view.read (Elt Ideal) (Cert.Softmax.rows (a := 100000) (b := 2) (V c main_v63)) := by
  show (cfg2.win 1).cut (grid2.coords t) ((dat2 V c).after 1 t) = _
  rw [after2_1]
  unfold out2_1
  rw [View.canon_unit_zero hz]
  simp only [View.ld_unit_zero (S := S10000x2) hz]
  obtain ⟨-, -, e2, e3⟩ := idx_facts t
  have ht : t.val < 10 := lt_of_lt_of_eq t.isLt N_2
  have hrow : ∀ p : Fin 10000, t.val * 10000 + p.val < 100000 := fun p => by have := p.isLt; omega
  funext j
  obtain ⟨p, q, rfl⟩ : ∃ (p : Fin 10000) (q : Fin 2), j = ix2 p q := ⟨j 0, j 1, eq_ix2 j⟩
  show k2_pay1 (iblk2 V c 0 t) (ix2 p q)
    = Cert.Softmax.rows (a := 100000) (b := 2) (V c main_v63) (((cfg2.win 1).blk t).view.emb (ix2 p q))
  rw [pay_apply, Cert.Softmax.rows_block (a := 100000) (b := 2) (B := 10000) (V c main_v63) (iblk2 V c 0 t) t.val hrow
    (fun p k => iblk_apply V c t p k (hrow p)) p q]
  congr 1
  funext a
  apply Fin.ext
  match a with
  | ⟨0, _⟩ => show t.val * 10000 + p.val = win2_1.index t 0 * 10000 + 1 * p.val; rw [e2]; omega
  | ⟨1, _⟩ => show q.val = win2_1.index t 1 * 2 + 1 * q.val; rw [e3]; omega

end

/-- An index of the output array is in point `t`'s block iff each coordinate is in the block's range on its axis. -/
theorem mem_blk (t : Fin cfg2.N) (i : S100000x2.Idx) :
    i ∈ ((cfg2.win 1).blk t).view.set ↔ ∀ a : Fin 2, win2_1.index t a * S10000x2.size a ≤ (i a).val
      ∧ (i a).val < win2_1.index t a * S10000x2.size a + S10000x2.size a := by
  show i ∈ ((View.whole main_v64).slice (win2_1.rect t)).set ↔ _
  rw [View.set_slice_whole, Rect.mem_set_unit]
  exact Iff.rfl

/-- Every index of the output array is in some point's block: row `r` is in the block of point `r / 10000`. -/
theorem cover (i : S100000x2.Idx) :
    ∃ t : Fin cfg2.N, (cfg2.win 1).flush t = true ∧ i ∈ ((cfg2.win 1).blk t).view.set := by
  have hi0 : (i 0).val < 100000 := (i 0).isLt
  have hi1 : (i 1).val < 2 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, e2, e3⟩ := idx_facts t
  refine ⟨t, flush2_1 t, ?_⟩
  rw [mem_blk]
  intro a
  match a with
  | ⟨0, _⟩ =>
    show win2_1.index t 0 * 10000 ≤ (i 0).val ∧ (i 0).val < win2_1.index t 0 * 10000 + 10000
    rw [e2, ht]; omega
  | ⟨1, _⟩ =>
    show win2_1.index t 1 * 2 ≤ (i 1).val ∧ (i 1).val < win2_1.index t 1 * 2 + 2
    rw [e3]; omega

end SoftmaxRegion

/-- THE OUTPUT ARRAY after the region: the row softmax of the input array as the region finds it. -/
theorem final2 (V : (c : Dev nD) → (b : Ref sig .tc) → Buf (Elt Ideal) ((c : Thread nD τ).loc b)) (c : Dev nD) :
    (dat2 (F := Ideal) V c).arrAt 1 cfg2.N = Cert.Softmax.rows (a := 100000) (b := 2) (V c main_v63) :=
  (dat2 V c).arrAt_eq_of_cover 1 _ (fun t _ => SoftmaxRegion.flushed_eq V c t) SoftmaxRegion.cover

end Cert.KernelIdeal.Blocks

end
-- ==== Proof.RefSoftmax.lean ====
/-
  The reference's closing softmax.

  The reference's last twelve operations take the `[100000, 2]` array `y` to its row softmax: the maximum of each row from
  `-∞` (and once more against `-∞`, which changes nothing since the fold already starts there), kept as a column and
  broadcast back; `exp (y - max)`; the sum of each row from `0`, kept and broadcast the same way; the quotient. Read at an
  index `(r, q)` this is `exp (y (r, q) - max_r) / ∑ k, exp (y (r, k) - max_r)`.
-/
import proofs.«182141_j12137577578917_2_alg».proof.Proof.RefReadP
import proofs.«182141_j12137577578917_2_alg».proof.Proof.SoftmaxSpec
import proofs.«182141_j12137577578917_2_alg».proof.Proof.LibRowMax
import Idealize.ShloMosaic.PureOps.Ideal.Laws
import Idealize.ShloMosaic.Lib.ValueIdx

noncomputable section

namespace Cert.ReferenceIdeal.RefSoftmax

open Idealize.ShloMosaic Cert.ReferenceIdeal Cert.ReferenceIdeal.ReadP
open Cert.ReferenceIdeal.Gen (reducesTo_S100000x2_S100000_d1 h_S_)
open Idealize.ShloMosaic.ValueIdx

section
variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x2, .f32⟩ : BufTy).Contents (Elt Ideal)) (x5 : (⟨S2, .f32⟩ : BufTy).Contents (Elt Ideal))

/-- The reference's row maximum, kept as a column and broadcast back, reads at `(r, k)` the greatest entry of row `r`
    (and `-∞`): the fold already starts at `-∞`, so the further maximum with `-∞` changes nothing. -/
theorem max_apply (r : Fin 100000) (k : Fin 2) :
    val_main_v98 (F := Ideal) x0 x1 x2 x3 x4 x5 (ix2 r k)
      = Cert.Softmax.rowMax (a := 100000) (b := 2) (val_main_v93 (F := Ideal) x0 x1 x2 x3 x4 x5) r := by
  rw [val_main_v98_apply, val_main_v97_apply, val_main_v96_apply, val_main_v95_apply]
  have e : idx_main_v97 (idx_main_v98 (ix2 r k)) = ix1 r :=
    funext fun a => Fin.ext (by match a with | ⟨0, _⟩ => rfl)
  rw [e]
  unfold val_main_v94
  generalize val_main_v93 (F := Ideal) x0 x1 x2 x3 x4 x5 = y
  rw [RowMax.hostRowMax_apply y _ reducesTo_S100000x2_S100000_d1 (by decide) h_S_ r]
  exact max_eq_right ((Finset.le_fold_max _).2 (Or.inl le_rfl))

/-- The reference's exponential at `(r, k)`. -/
theorem exp_apply (r : Fin 100000) (k : Fin 2) :
    val_main_v100 (F := Ideal) x0 x1 x2 x3 x4 x5 (ix2 r k)
      = Ideal.exp (val_main_v93 (F := Ideal) x0 x1 x2 x3 x4 x5 (ix2 r k)
          - Cert.Softmax.rowMax (a := 100000) (b := 2) (val_main_v93 (F := Ideal) x0 x1 x2 x3 x4 x5) r) := by
  refine (val_main_v100_apply (F := Ideal) x0 x1 x2 x3 x4 x5 (ix2 r k)).trans ?_
  rw [val_main_v99_apply, max_apply]
  generalize val_main_v93 (F := Ideal) x0 x1 x2 x3 x4 x5 (ix2 r k) = a
  generalize Cert.Softmax.rowMax (a := 100000) (b := 2) (val_main_v93 (F := Ideal) x0 x1 x2 x3 x4 x5) r = m
  rfl

/-- The reference's row sum of exponentials, kept as a column and broadcast back, at `(r, q)`. -/
theorem sum_apply (r : Fin 100000) (q : Fin 2) :
    val_main_v103 (F := Ideal) x0 x1 x2 x3 x4 x5 (ix2 r q)
      = ∑ k : Fin 2, Ideal.exp (val_main_v93 (F := Ideal) x0 x1 x2 x3 x4 x5 (ix2 r k)
          - Cert.Softmax.rowMax (a := 100000) (b := 2) (val_main_v93 (F := Ideal) x0 x1 x2 x3 x4 x5) r) := by
  rw [val_main_v103_apply, val_main_v102_apply, val_main_v101_apply]
  have e : idx_main_v102 (idx_main_v103 (ix2 r q)) = ix1 r :=
    funext fun a => Fin.ext (by match a with | ⟨0, _⟩ => rfl)
  have e2 : ∀ k : Fin 2, idx_main_v101 (ix1 r) k = ix2 r k := fun k =>
    funext fun a => Fin.ext (by match a with | ⟨0, _⟩ => rfl | ⟨1, _⟩ => rfl)
  rw [e]
  simp only [e2, exp_apply]
  rw [val_main_cst_22_apply]
  show Ideal.ofBits .f32 0x00000000#32 + _ = _
  rw [Ideal.ofBits_zero_f32, zero_add]

end

/-- The reference's last twelve operations are the row softmax of its `[100000, 2]` operand. -/
theorem ref_softmax (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x2, .f32⟩ : BufTy).Contents (Elt Ideal)) (x5 : (⟨S2, .f32⟩ : BufTy).Contents (Elt Ideal)) :
    val_main_v104 (F := Ideal) x0 x1 x2 x3 x4 x5 = Cert.Softmax.rows (a := 100000) (b := 2) (val_main_v93 (F := Ideal) x0 x1 x2 x3 x4 x5) := by
  funext i
  obtain ⟨r, q, rfl⟩ : ∃ (r : Fin 100000) (q : Fin 2), i = ix2 r q := ⟨i 0, i 1, eq_ix2 i⟩
  rw [val_main_v104_apply, exp_apply, sum_apply, Cert.Softmax.rows_apply]
  rfl

end Cert.ReferenceIdeal.RefSoftmax

end
-- ==== Proof.KernelValue.lean ====
/-
  The idealized kernel's result buffer, at the end of the run, as the reference's last stage of the arguments.

  The third grid region takes the softmax of every row of the second layer's output; the reference's last twelve
  operations are the same row softmax, so the result is the reference's result stage of the launch arguments.
-/
import proofs.«182141_j12137577578917_2_alg».proof.Proof.Chain
import proofs.«182141_j12137577578917_2_alg».proof.Proof.SoftmaxSpec
import proofs.«182141_j12137577578917_2_alg».proof.Proof.SoftmaxBlocks
import proofs.«182141_j12137577578917_2_alg».proof.Proof.RefSoftmax

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-- THE RESULT: the row softmax of the second layer, which is the reference's last stage of the arguments. -/
theorem W8_v64 : W8 m ρ c (Proc.devRef .tc main_v64)
    = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 1).trans ((Blocks.final2 (V7 m ρ) c).trans ?_)
  rw [show V7 m ρ c main_v63 = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from W7_v63 m ρ c]
  exact (Cert.ReferenceIdeal.RefSoftmax.ref_softmax _ _ _ _ _ _).symm

end Cert.KernelIdeal.Chain

end
-- ==== Proof.lean ====
/-
  A two-layer graph convolution followed by a row softmax, as a kernel program and as its plain reference, are one
  function of their arguments on the extended reals.

  Both programs add a self loop to every node, count each node's degree `d` by adding a one at every edge's destination,
  weigh an edge `s → t` by `d_s^(-1/2) · d_t^(-1/2)` (zero where a degree is not positive), and compute twice
  `out_t = ∑_{s → t} weight · (x · W)_s + b`, then the softmax of every row of the `[100000, 2]` result.
  The kernel program forms the two products `x · W` on the matrix unit, 2000 rows at a grid point, after rounding both
  operands to a narrower format — the identity on the extended reals, and a sum of 128 products whatever the tiling — and
  takes the softmax 10000 rows at a grid point; a row's softmax depends on that row only. The gathers, the scalings and
  the scatter-adds between the grid regions are the reference's own operations. The reference computes the degrees and
  the edge weights once per layer, the kernel program once; they are the same operations of the same edge list.

  The three frames: the two kernel programs' by the generated frame certificates, the reference's by its run with the
  result dropped. No operation was rewritten by the idealization, so `preserves` asks nothing. For `algebraic` the
  kernel program's run ends with the result buffer at the last boundary's contents (KernelRun.lean), which is the
  reference's result stage of the arguments (Chain.lean, KernelValue.lean over MatmulBlocks.lean, SoftmaxBlocks.lean and
  RefSoftmax.lean), and the reference's run ends at the same stage of its arguments, which agree. No law used needs a
  finite operand, so the precondition is never opened.
-/
import proofs.«182141_j12137577578917_2_alg».proof.Defs
import proofs.«182141_j12137577578917_2_alg».proof.Proof.Gen.Kernel
import proofs.«182141_j12137577578917_2_alg».proof.Proof.Gen.Kernel.Skeleton
import proofs.«182141_j12137577578917_2_alg».proof.Proof.Gen.Kernel.Launch
import proofs.«182141_j12137577578917_2_alg».proof.Proof.Gen.Kernel.Points
import proofs.«182141_j12137577578917_2_alg».proof.Proof.Gen.Kernel.Frame
import proofs.«182141_j12137577578917_2_alg».proof.Proof.Gen.KernelIdeal
import proofs.«182141_j12137577578917_2_alg».proof.Proof.Gen.KernelIdeal.Skeleton
import proofs.«182141_j12137577578917_2_alg».proof.Proof.Gen.KernelIdeal.Launch
import proofs.«182141_j12137577578917_2_alg».proof.Proof.Gen.KernelIdeal.Points
import proofs.«182141_j12137577578917_2_alg».proof.Proof.Gen.KernelIdeal.Frame
import proofs.«182141_j12137577578917_2_alg».proof.Proof.Gen.ReferenceIdeal
import proofs.«182141_j12137577578917_2_alg».proof.Proof.Gen.Pre_finite_inputs
import proofs.«182141_j12137577578917_2_alg».proof.Proof.RefRunP
import proofs.«182141_j12137577578917_2_alg».proof.Proof.RefReadP
import proofs.«182141_j12137577578917_2_alg».proof.Proof.KernelRun
import proofs.«182141_j12137577578917_2_alg».proof.Proof.KernelValue
import Idealize.ShloMosaic.Adequacy
import Idealize.ShloMosaic.Init

noncomputable section

namespace Cert.Proof

open Idealize.ShloMosaic Idealize.SL.Sem

/-- The kernel program as printed runs, and its arguments end as launched. -/
theorem frame_kernel : Cert.frame_Kernel := fun m ρ _ => Cert.Kernel.Gen.frame m ρ

/-- The idealized kernel program runs, and its arguments end as launched. -/
theorem frame_kernelIdeal : Cert.frame_KernelIdeal := fun m ρ _ => Cert.KernelIdeal.Gen.frame m ρ

/-- The reference runs, and its arguments end as launched: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the result at the reference's last stage of the
    arguments: the kernel program's by the walk through its regions, the reference's by its run. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Chain.W8_v64 m ρ c), (h c).2⟩)
    (Cert.KernelIdeal.Result.run_result (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v104_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
